-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1200000 32) (main_arg2 : FVec F S1200000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1300000 : Shape := ⟨1, ![1300000]⟩
abbrev S_ : Shape := ⟨0, ![]⟩
abbrev S1300000x1 : Shape := ⟨2, ![1300000, 1]⟩
abbrev S64x128 : Shape := ⟨2, ![64, 128]⟩
abbrev S128x128 : Shape := ⟨2, ![128, 128]⟩
abbrev S50000x128 : Shape := ⟨2, ![50000, 128]⟩
abbrev S10000x128 : Shape := ⟨2, ![10000, 128]⟩
abbrev S1300000x64 : Shape := ⟨2, ![1300000, 64]⟩
abbrev S1x64 : Shape := ⟨2, ![1, 64]⟩

abbrev nBuf : Space → Nat
  | .hbm => 79
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1200000, .i32⟩
  | .hbm, ⟨7, _⟩ => ⟨S1200000, .i32⟩
  | .hbm, ⟨8, _⟩ => ⟨S1300000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S_, .f32⟩
  | .hbm, ⟨13, _⟩ => ⟨S100000, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S1300000, .f32⟩
  | .hbm, ⟨37, _⟩ => ⟨S_, .i32⟩
  | .hbm, ⟨38, _⟩ => ⟨S1300000, .i32⟩
  | .hbm, ⟨39, _⟩ => ⟨S1300000, .i1⟩
  | .hbm, ⟨40, _⟩ => ⟨S_, .i32⟩
  | .hbm, ⟨41, _⟩ => ⟨S1300000, .i32⟩
  | .hbm, ⟨42, _⟩ => ⟨S1300000, .i32⟩
  | .hbm, ⟨43, _⟩ => ⟨S1300000, .i32⟩
  | .hbm, ⟨44, _⟩ => ⟨S1300000x1, .i32⟩
  | .hbm, ⟨45, _⟩ => ⟨S1300000, .f32⟩
  | .hbm, ⟨46, _⟩ => ⟨S1300000, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x128, .f32⟩
  | .hbm, ⟨51, _⟩ => ⟨S64x128, .f32⟩
  | .hbm, ⟨52, _⟩ => ⟨S128x128, .f32⟩
  | .hbm, ⟨53, _⟩ => ⟨S50000x128, .f32⟩
  | .hbm, ⟨54, _⟩ => ⟨S50000x128, .bf16⟩
  | .hbm, ⟨55, _⟩ => ⟨S100000x64, .bf16⟩
  | .hbm, ⟨56, _⟩ => ⟨S1300000x1, .f32⟩
  | .hbm, ⟨57, _⟩ => ⟨S_, .i32⟩
  | .hbm, ⟨58, _⟩ => ⟨S1300000, .i32⟩
  | .hbm, ⟨59, _⟩ => ⟨S1300000, .i1⟩
  | .hbm, ⟨60, _⟩ => ⟨S_, .i32⟩
  | .hbm, ⟨61, _⟩ => ⟨S1300000, .i32⟩
  | .hbm, ⟨62, _⟩ => ⟨S1300000, .i32⟩
  | .hbm, ⟨63, _⟩ => ⟨S1300000, .i32⟩
  | .hbm, ⟨64, _⟩ => ⟨S1300000x1, .i32⟩
  | .hbm, ⟨65, _⟩ => ⟨S1300000x64, .bf16⟩
  | .hbm, ⟨66, _⟩ => ⟨S1300000x64, .f32⟩
  | .hbm, ⟨67, _⟩ => ⟨S1300000x64, .f32⟩
  | .hbm, ⟨68, _⟩ => ⟨S1300000x64, .f32⟩
  | .hbm, ⟨69, _⟩ => ⟨S_, .f32⟩
  | .hbm, ⟨70, _⟩ => ⟨S100000x64, .f32⟩
  | .hbm, ⟨71, _⟩ => ⟨S1300000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call1_cst : Ref sig .tc := ⟨.hbm, 76, rfl⟩
abbrev main_call1_v0 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  shapeCasts_S100000x64_S50000x128 : S100000x64.ShapeCasts S50000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S10000x128_S10000x128_0_0 : (Rect.unit (s := S10000x128) ![0, 0] S10000x128.size inb_S10000x128_S10000x128_0_0).PackedRows (EltTy.packing .bf16)
  shapeCasts_S50000x128_S100000x64 : S50000x128.ShapeCasts S100000x64
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x128_S128x128_S10000x128_1_0_0_1_n_n_wf : DotDims.WF S10000x128 S128x128 S10000x128 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .bf16 = 32 ∨ (Rect.block (s := S50000x128) S10000x128.size (cc0_transform_2 i) (hinb0_2 i)).WholeWords (EltTy.packing .bf16)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_v37) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1200000, .i32⟩
  | .hbm, ⟨7, _⟩ => ⟨S1200000, .i32⟩
  | .hbm, ⟨8, _⟩ => ⟨S1300000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S_, .f32⟩
  | .hbm, ⟨13, _⟩ => ⟨S100000, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S1300000, .f32⟩
  | .hbm, ⟨37, _⟩ => ⟨S_, .i32⟩
  | .hbm, ⟨38, _⟩ => ⟨S1300000, .i32⟩
  | .hbm, ⟨39, _⟩ => ⟨S1300000, .i1⟩
  | .hbm, ⟨40, _⟩ => ⟨S_, .i32⟩
  | .hbm, ⟨41, _⟩ => ⟨S1300000, .i32⟩
  | .hbm, ⟨42, _⟩ => ⟨S1300000, .i32⟩
  | .hbm, ⟨43, _⟩ => ⟨S1300000, .i32⟩
  | .hbm, ⟨44, _⟩ => ⟨S1300000x1, .i32⟩
  | .hbm, ⟨45, _⟩ => ⟨S1300000, .f32⟩
  | .hbm, ⟨46, _⟩ => ⟨S1300000, .f32⟩
  | .hbm, ⟨47, _⟩ => ⟨S64x64, .f32⟩
  | .hbm, ⟨48, _⟩ => ⟨S100000x64, .f32⟩
  | .hbm, ⟨49, _⟩ => ⟨S1300000x1, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S1300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  transposes_S64x64_S64x64_1_0 : S64x64.Transposes [1, 0] S64x64
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.Shared.lean ====
/-
  What both programs do with the transformed node features.

  After the linear transform h = x · Wᵀ the two programs run the same operations: gather row source[e] of h for every
  message e, scale it by the message's normalisation, scatter-add the scaled rows into their target nodes from a zero
  array, add the bias to every row, and take the maximum with zero. That chain is named here ONCE, as a function of
  the edge list, the edge weights, the bias and h, over the reference's own stages, and is never opened: the two
  programs' results are this one function of equal arguments.
-/
import proofs.«107853_j13786845020199_2_alg».proof.Proof.Gen.ReferenceIdeal.Read

noncomputable section

namespace Cert.ReferenceIdeal.Shared

open Idealize.ShloMosaic Cert.ReferenceIdeal Cert.ReferenceIdeal.Gen Cert.ReferenceIdeal.Read

/-- segment_sum (norm[:, None] * h[source], target) + bias, as the reference spells it. -/
def pre (x1 : (⟨S2x1200000, .i32⟩ : BufTy).Contents (Elt Ideal)) (x2 : (⟨S1200000, .f32⟩ : BufTy).Contents (Elt Ideal))
    (x4 : (⟨S64, .f32⟩ : BufTy).Contents (Elt Ideal)) (h : (⟨S100000x64, .f32⟩ : BufTy).Contents (Elt Ideal)) :
    (⟨S100000x64, .f32⟩ : BufTy).Contents (Elt Ideal) :=
  addf (F := Ideal) (φ := .f32)
    (Host.scatterAdd (F := Ideal) (φ := .f32) scatter_S100000x64_S1300000x1_S1300000x64_1_0_0_1 (val_main_v44 (F := Ideal))
      (val_main_v45 (F := Ideal) x1)
      (mulf (F := Ideal) (φ := .f32) (val_main_v42 (F := Ideal) x1 x2)
        (Host.gather gather_S100000x64_S1300000x1_S1300000x64_1_0_n_n_0_1_164 h (val_main_v40 (F := Ideal) x1))))
    (val_main_v48 (F := Ideal) x4)

/-- relu of that: the maximum with zero. -/
def out (x1 : (⟨S2x1200000, .i32⟩ : BufTy).Contents (Elt Ideal)) (x2 : (⟨S1200000, .f32⟩ : BufTy).Contents (Elt Ideal))
    (x4 : (⟨S64, .f32⟩ : BufTy).Contents (Elt Ideal)) (h : (⟨S100000x64, .f32⟩ : BufTy).Contents (Elt Ideal)) :
    (⟨S100000x64, .f32⟩ : BufTy).Contents (Elt Ideal) :=
  maximumf (F := Ideal) (φ := .f32) (pre x1 x2 x4 h) (val_main_call1_v0 (F := Ideal))

/-- The reference's result is that chain applied to its own h, the host product x · Wᵀ. -/
theorem result_eq (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x64, .f32⟩ : BufTy).Contents (Elt Ideal))
    (x4 : (⟨S64, .f32⟩ : BufTy).Contents (Elt Ideal)) :
    val_main_v50 (F := Ideal) x0 x1 x2 x3 x4 = out x1 x2 x4 (val_main_v33 (F := Ideal) x0 x3) := by
  unfold val_main_v50 val_main_v49 val_main_v46 val_main_v43 val_main_v41 out pre
  rfl

end Cert.ReferenceIdeal.Shared

end
-- ==== Proof.LibConcat2.lean ====
/-
  A concatenation of two arrays, named.

  The printed programs write a two-operand `concatenate` over a list of two (shape, array) pairs, and the shape fact it
  takes is stated about that list, so its type mentions the two arrays. Naming the concatenation as a function of the
  two arrays, with the shape fact stated about the two shapes alone, makes the arrays ordinary arguments on which
  nothing else depends, which rewriting reaches.
-/
import Idealize.ShloMosaic.PureOps.ShapeOps

namespace Cert.LibConcat2

open Idealize.ShloMosaic

/-- The concatenation of `x` (of shape `s₁`) and `y` (of shape `s₂`) along axis `a` into shape `t`. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A two-operand `concatenate` is `concat2` of its operands. -/
theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = concat2 t a s₁ s₂ h x y := rfl

end Cert.LibConcat2
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.BlockDiag.lean ====
/-
  The block-diagonal weight, entry by entry.

  From a 64 × 64 weight w the kernel's program builds the 128 × 128 array

        [ wᵀ  0 ]
        [ 0  wᵀ ]

  by joining wᵀ and a zero block side by side (upper half), a zero block and wᵀ side by side (lower half), and the
  two halves one above the other. Read at (k, q): for k, q < 64 it is w (q, k); for k < 64 ≤ q and for q < 64 ≤ k it
  is 0; for 64 ≤ k, q it is w (q − 64, k − 64).
-/
import proofs.«107853_j13786845020199_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockDiag

open Idealize.ShloMosaic Idealize.ShloMosaic.ValueIdx
open Cert.KernelIdeal Cert.KernelIdeal.Gen

/-- The 64 × 64 block of zeros. -/
def zeroBlock : S64x64.Idx → EReal :=
  broadcastInDim S64x64 ![] bcast_S_S64x64 (constant (F := Ideal) S_ .f32 0x00000000#32)

/-- The upper half: wᵀ, then zeros. -/
def upper (w : S64x64.Idx → EReal) : S64x128.Idx → EReal :=
  concatenate S64x128 1 [⟨S64x64, transpose S64x64 [1, 0] w transposes_S64x64_S64x64_1_0⟩, ⟨S64x64, zeroBlock⟩]
    concatenates_S64x64_S64x64_S64x128_d1

/-- The lower half: zeros, then wᵀ. -/
def lower (w : S64x64.Idx → EReal) : S64x128.Idx → EReal :=
  concatenate S64x128 1 [⟨S64x64, zeroBlock⟩, ⟨S64x64, transpose S64x64 [1, 0] w transposes_S64x64_S64x64_1_0⟩]
    concatenates_S64x64_S64x64_S64x128_d1

/-- The 128 × 128 weight the call multiplies by: the upper half above the lower half. -/
def blockDiag (w : S64x64.Idx → EReal) : S128x128.Idx → EReal :=
  concatenate S128x128 0 [⟨S64x128, upper w⟩, ⟨S64x128, lower w⟩] concatenates_S64x128_S64x128_S128x128_d0

theorem zeroBlock_apply (i : S64x64.Idx) : zeroBlock i = 0 := by
  unfold zeroBlock
  rw [broadcastInDim_apply _ bcast_S_S64x64 _ i ix0 (fun a => a.elim0)]
  exact Ideal.ofBits_zero_f32

theorem transposed_apply (w : S64x64.Idx → EReal) (k q : Fin 64) :
    transpose S64x64 [1, 0] w transposes_S64x64_S64x64_1_0 (ix2 k q) = w (ix2 q k) :=
  transpose_ix2_apply w transposes_S64x64_S64x64_1_0 k q

variable (w : S64x64.Idx → EReal) (k q : Fin 64)

theorem upper_left : upper w (ix2 k (⟨q.val, by have := q.isLt; omega⟩ : Fin 128)) = w (ix2 q k) := by
  unfold upper
  rw [concatenate_pair_apply_left (t := S64x128) (s₁ := S64x64) (s₂ := S64x64) (1 : Fin 2) _ _ concatenates_S64x64_S64x64_S64x128_d1
    (ix2 k (⟨q.val, by have := q.isLt; omega⟩ : Fin 128)) rfl (ix2 k q)
    (fun b => match b with | ⟨0, _⟩ => rfl | ⟨1, _⟩ => rfl)]
  exact transposed_apply w k q

theorem upper_right : upper w (ix2 k (⟨64 + q.val, by have := q.isLt; omega⟩ : Fin 128)) = 0 := by
  unfold upper
  rw [concatenate_pair_apply_right (t := S64x128) (s₁ := S64x64) (s₂ := S64x64) (1 : Fin 2) _ _ concatenates_S64x64_S64x64_S64x128_d1
    (ix2 k (⟨64 + q.val, by have := q.isLt; omega⟩ : Fin 128)) rfl rfl (ix2 k q)
    (fun b hb => match b, hb with | ⟨0, _⟩, _ => rfl | ⟨1, _⟩, hb => absurd rfl hb)
    (by show q.val + 64 = 64 + q.val; omega)]
  exact zeroBlock_apply _

theorem lower_left : lower w (ix2 k (⟨q.val, by have := q.isLt; omega⟩ : Fin 128)) = 0 := by
  unfold lower
  rw [concatenate_pair_apply_left (t := S64x128) (s₁ := S64x64) (s₂ := S64x64) (1 : Fin 2) _ _ concatenates_S64x64_S64x64_S64x128_d1
    (ix2 k (⟨q.val, by have := q.isLt; omega⟩ : Fin 128)) rfl (ix2 k q)
    (fun b => match b with | ⟨0, _⟩ => rfl | ⟨1, _⟩ => rfl)]
  exact zeroBlock_apply _

theorem lower_right : lower w (ix2 k (⟨64 + q.val, by have := q.isLt; omega⟩ : Fin 128)) = w (ix2 q k) := by
  unfold lower
  rw [concatenate_pair_apply_right (t := S64x128) (s₁ := S64x64) (s₂ := S64x64) (1 : Fin 2) _ _ concatenates_S64x64_S64x64_S64x128_d1
    (ix2 k (⟨64 + q.val, by have := q.isLt; omega⟩ : Fin 128)) rfl rfl (ix2 k q)
    (fun b hb => match b, hb with | ⟨0, _⟩, _ => rfl | ⟨1, _⟩, hb => absurd rfl hb)
    (by show q.val + 64 = 64 + q.val; omega)]
  exact transposed_apply w k q

/-- Row k < 64 of the weight is row k of the upper half. -/
theorem blockDiag_top (q' : Fin 128) :
    blockDiag w (ix2 (⟨k.val, by have := k.isLt; omega⟩ : Fin 128) q') = upper w (ix2 k q') := by
  unfold blockDiag
  exact concatenate_pair_apply_left (t := S128x128) (s₁ := S64x128) (s₂ := S64x128) (0 : Fin 2) _ _
    concatenates_S64x128_S64x128_S128x128_d0 (ix2 (⟨k.val, by have := k.isLt; omega⟩ : Fin 128) q') rfl (ix2 k q')
    (fun b => match b with | ⟨0, _⟩ => rfl | ⟨1, _⟩ => rfl)

/-- Row 64 + k of the weight is row k of the lower half. -/
theorem blockDiag_bottom (q' : Fin 128) :
    blockDiag w (ix2 (⟨64 + k.val, by have := k.isLt; omega⟩ : Fin 128) q') = lower w (ix2 k q') := by
  unfold blockDiag
  exact concatenate_pair_apply_right (t := S128x128) (s₁ := S64x128) (s₂ := S64x128) (0 : Fin 2) _ _
    concatenates_S64x128_S64x128_S128x128_d0 (ix2 (⟨64 + k.val, by have := k.isLt; omega⟩ : Fin 128) q') rfl rfl (ix2 k q')
    (fun b hb => match b, hb with | ⟨0, _⟩, hb => absurd rfl hb | ⟨1, _⟩, _ => rfl)
    (by show k.val + 64 = 64 + k.val; omega)

end Cert.KernelIdeal.BlockDiag

end
-- ==== Proof.HostValue.lean ====
/-
  What the kernel's program has computed on the host when the pallas_call is entered.

  Up to the transpose of the weight, the kernel's program and the reference run the same host operations in the
  same order on the same arguments: the edge list with the self loops appended (sources, targets), the edge weights
  with ones appended, the weighted in-degree by a scatter-add, its inverse square root where positive, and the
  per-edge normalisation. So each of those buffers holds the reference's stage of the same number. The kernel's
  program then builds the two arrays its pallas_call reads: the 128 × 128 block-diagonal weight — the transposed
  weight in the upper-left and lower-right 64 × 64 corners, zeros elsewhere — and the node features re-laid as
  50000 rows of 128 lanes.
-/
import proofs.«107853_j13786845020199_2_alg».proof.Proof.Gen.KernelIdeal.Frame
import proofs.«107853_j13786845020199_2_alg».proof.Proof.Gen.ReferenceIdeal.Read
import Idealize.ShloMosaic.Lib.StableHlo.Run
import proofs.«107853_j13786845020199_2_alg».proof.Proof.LibConcat2
import proofs.«107853_j13786845020199_2_alg».proof.Proof.LibHostRead
import proofs.«107853_j13786845020199_2_alg».proof.Proof.BlockDiag

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The source node of every message (edges, then self loops) is the reference's. -/
theorem sources (c : Dev nD) :
    V m c main_v3 = Cert.ReferenceIdeal.Read.val_main_v3 (F := Ideal) (m ((c : Thread nD τ).loc main_arg1)) := by
  dsimp only [V, V0]
  simp only [hostOps0, hostOps0_1, hostOps0_2, List.flatten_cons, List.flatten_nil, List.append_nil, List.cons_append,
    List.nil_append, Cert.LibConcat2.concatenate_pair]
  after_results_simp
  rfl

set_option maxHeartbeats 4000000 in
/-- The target node of every message is the reference's. -/
theorem targets (c : Dev nD) :
    V m c main_v6 = Cert.ReferenceIdeal.Read.val_main_v6 (F := Ideal) (m ((c : Thread nD τ).loc main_arg1)) := by
  dsimp only [V, V0]
  simp only [hostOps0, hostOps0_1, hostOps0_2, List.flatten_cons, List.flatten_nil, List.append_nil, List.cons_append,
    List.nil_append, Cert.LibConcat2.concatenate_pair]
  after_results_simp
  rfl

/-! ### The normalisations, stretch by stretch

The host lines before the call come in three stretches: the lines up to the outlined `where`, the three lines of the
`where` (select the inverse square root where the degree is positive, zero elsewhere), and the lines after it. Each
stretch is read from start contents of which only the few buffers it consumes are known. -/

theorem split (c : Dev nD) :
    V0 m c = after hostOps0_2 (after hostOps0_1 (after hostOps0 fun b => m (c, b))) := by
  show after (List.flatten [hostOps0, hostOps0_1, hostOps0_2]) _ = _
  rw [List.flatten_cons, List.flatten_cons, List.flatten_cons, List.flatten_nil, List.append_nil,
    LibHostRead.after_append, LibHostRead.after_append]

section Before
variable (c : Dev nD)

set_option maxHeartbeats 4000000 in
theorem before_sources : after hostOps0 (fun b => m (c, b)) (Proc.devRef .tc main_v3)
    = Cert.ReferenceIdeal.Read.val_main_v3 (F := Ideal) (m ((c : Thread nD τ).loc main_arg1)) := by
  simp only [hostOps0, Cert.LibConcat2.concatenate_pair]
  after_results_simp
  rfl

set_option maxHeartbeats 4000000 in
theorem before_targets : after hostOps0 (fun b => m (c, b)) (Proc.devRef .tc main_v6)
    = Cert.ReferenceIdeal.Read.val_main_v6 (F := Ideal) (m ((c : Thread nD τ).loc main_arg1)) := by
  simp only [hostOps0, Cert.LibConcat2.concatenate_pair]
  after_results_simp
  rfl

set_option maxHeartbeats 4000000 in
theorem before_weights : after hostOps0 (fun b => m (c, b)) (Proc.devRef .tc main_v8)
    = Cert.ReferenceIdeal.Read.val_main_v8 (F := Ideal) (m ((c : Thread nD τ).loc main_arg2)) := by
  simp only [hostOps0, Cert.LibConcat2.concatenate_pair]
  after_results_simp
  rfl

set_option maxHeartbeats 4000000 in
theorem before_positive : after hostOps0 (fun b => m (c, b)) (Proc.devRef .tc main_v13)
    = Cert.ReferenceIdeal.Read.val_main_v13 (F := Ideal) (m ((c : Thread nD τ).loc main_arg1))
        (m ((c : Thread nD τ).loc main_arg2)) := by
  simp only [hostOps0, Cert.LibConcat2.concatenate_pair]
  after_results_simp
  rfl

set_option maxHeartbeats 4000000 in
theorem before_rsqrt : after hostOps0 (fun b => m (c, b)) (Proc.devRef .tc main_v14)
    = Cert.ReferenceIdeal.Read.val_main_v14 (F := Ideal) (m ((c : Thread nD τ).loc main_arg1))
        (m ((c : Thread nD τ).loc main_arg2)) := by
  simp only [hostOps0, Cert.LibConcat2.concatenate_pair]
  after_results_simp
  rfl

set_option maxHeartbeats 4000000 in
theorem before_zero : after hostOps0 (fun b => m (c, b)) (Proc.devRef .tc main_cst_2)
    = Cert.ReferenceIdeal.Read.val_main_cst_2 (F := Ideal) := by
  simp only [hostOps0, Cert.LibConcat2.concatenate_pair]
  after_results_simp
  rfl

end Before

section Where
variable (A : Valuation τ sig (Elt Ideal))

/-- The `where`: from any contents with the comparison at `p`, the inverse square root at `r` and the zero constant in
    place, its result is `select p r 0`. -/
theorem where_result (p : (⟨S100000, .i1⟩ : BufTy).Contents (Elt Ideal)) (r : (⟨S100000, .f32⟩ : BufTy).Contents (Elt Ideal))
    (hp : A (Proc.devRef .tc main_v13) = p) (hr : A (Proc.devRef .tc main_v14) = r)
    (hz : A (Proc.devRef .tc main_cst_2) = Cert.ReferenceIdeal.Read.val_main_cst_2 (F := Ideal)) :
    after hostOps0_1 A (Proc.devRef .tc main_v15)
      = select p r (Cert.ReferenceIdeal.Read.val_main_call0_v1 (F := Ideal)) := by
  simp only [hostOps0_1]
  after_results
  rw [hp, hr, hz]
  rfl

/-- The `where` writes none of the buffers computed before it. -/
theorem where_keeps_sources : after hostOps0_1 A (Proc.devRef .tc main_v3) = A (Proc.devRef .tc main_v3) := by
  simp only [hostOps0_1]; after_results
theorem where_keeps_targets : after hostOps0_1 A (Proc.devRef .tc main_v6) = A (Proc.devRef .tc main_v6) := by
  simp only [hostOps0_1]; after_results
theorem where_keeps_weights : after hostOps0_1 A (Proc.devRef .tc main_v8) = A (Proc.devRef .tc main_v8) := by
  simp only [hostOps0_1]; after_results

end Where

section After
variable (B : Valuation τ sig (Elt Ideal))
variable (x1 : (⟨S2x1200000, .i32⟩ : BufTy).Contents (Elt Ideal)) (x2 : (⟨S1200000, .f32⟩ : BufTy).Contents (Elt Ideal))

set_option maxHeartbeats 8000000 in
/-- The lines after the `where`: from any contents holding the reference's sources, targets, weights and inverse
    square roots, the normalisations are the reference's. -/
theorem after_norms
    (h3 : B (Proc.devRef .tc main_v3) = Cert.ReferenceIdeal.Read.val_main_v3 (F := Ideal) x1)
    (h6 : B (Proc.devRef .tc main_v6) = Cert.ReferenceIdeal.Read.val_main_v6 (F := Ideal) x1)
    (h8 : B (Proc.devRef .tc main_v8) = Cert.ReferenceIdeal.Read.val_main_v8 (F := Ideal) x2)
    (h15 : B (Proc.devRef .tc main_v15) = Cert.ReferenceIdeal.Read.val_main_v15 (F := Ideal) x1 x2) :
    after hostOps0_2 B (Proc.devRef .tc main_v31) = Cert.ReferenceIdeal.Read.val_main_v31 (F := Ideal) x1 x2 := by
  simp only [hostOps0_2, Cert.LibConcat2.concatenate_pair]
  after_results_simp
  rw [h3, h6, h8, h15]
  rfl

end After

/-- The normalisation of every message, deg^(-1/2)[source] · weight · deg^(-1/2)[target], is the reference's. -/
theorem norms (c : Dev nD) :
    V m c main_v31 = Cert.ReferenceIdeal.Read.val_main_v31 (F := Ideal) (m ((c : Thread nD τ).loc main_arg1))
      (m ((c : Thread nD τ).loc main_arg2)) := by
  show V0 m c (Proc.devRef .tc main_v31) = _
  rw [split]
  refine after_norms _ _ _ ?_ ?_ ?_ ?_
  · rw [where_keeps_sources]; exact before_sources m c
  · rw [where_keeps_targets]; exact before_targets m c
  · rw [where_keeps_weights]; exact before_weights m c
  · exact where_result _ _ _ (before_positive m c) (before_rsqrt m c) (before_zero m c)

set_option maxHeartbeats 4000000 in
/-- The right operand of the call is the block-diagonal weight of the weight argument. -/
theorem weight (c : Dev nD) :
    V m c main_v36 = BlockDiag.blockDiag (m ((c : Thread nD τ).loc main_arg3)) := by
  dsimp only [V, V0]
  simp only [hostOps0, hostOps0_1, hostOps0_2, List.flatten_cons, List.flatten_nil, List.append_nil, List.cons_append,
    List.nil_append, Cert.LibConcat2.concatenate_pair]
  after_results_simp
  rfl

set_option maxHeartbeats 4000000 in
/-- The left operand of the call is the node features in row-major order at 50000 × 128. -/
theorem paired (c : Dev nD) :
    V m c main_v37 = shapeCast S50000x128 (m ((c : Thread nD τ).loc main_arg0)) shapeCasts_S100000x64_S50000x128 := by
  dsimp only [V, V0]
  simp only [hostOps0, hostOps0_1, hostOps0_2, List.flatten_cons, List.flatten_nil, List.append_nil, List.cons_append,
    List.nil_append, Cert.LibConcat2.concatenate_pair]
  after_results_simp
  rfl

end Cert.KernelIdeal.HostValue

end
-- ==== Proof.TailValue.lean ====
/-
  The kernel's program after its pallas_call.

  The call's output array (50000 rows of 128 lanes, stored as bf16, which on extended reals is the same number) is
  re-laid as 100000 rows of 64 — node n's transformed features are lanes 64·(n mod 2) … of row n / 2 — and from there
  the program runs the chain it shares with the reference, on the sources, targets and normalisations it computed
  before the call. So its result is the shared chain applied to the re-laid output array.
-/
import proofs.«107853_j13786845020199_2_alg».proof.Proof.HostValue
import proofs.«107853_j13786845020199_2_alg».proof.Proof.Shared
import Idealize.ShloMosaic.Lib.Pipeline.FrameSuffix

set_option maxRecDepth 16384

noncomputable section

namespace Cert.KernelIdeal.TailValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The contents the lines after the call start from: the call's arrays as it leaves them, everything else as it was
    when the call was entered. -/
abbrev afterCall (c : Dev nD) : Valuation τ sig (Elt Ideal) :=
  Pipeline.withArrays (cfgs 0).spec c (V0 m c) fun w => (dats m 0 c).arrAt w (cfgs 0).N

theorem afterCall_out (c : Dev nD) : afterCall m c (Proc.devRef .tc main_v38) = (dats m 0 c).arrAt 2 cfg0.N :=
  Pipeline.withArrays_arr spec0 launch0.win.arr_inj c _ _ 2

theorem afterCall_sources (c : Dev nD) : afterCall m c (Proc.devRef .tc main_v3) = V m c main_v3 :=
  Pipeline.withArrays_of_ne _ c (V0 m c) _ main_v3 (by exact (by decide : ∀ w, Pipeline.arrRef spec0 w ≠ main_v3))
theorem afterCall_targets (c : Dev nD) : afterCall m c (Proc.devRef .tc main_v6) = V m c main_v6 :=
  Pipeline.withArrays_of_ne _ c (V0 m c) _ main_v6 (by exact (by decide : ∀ w, Pipeline.arrRef spec0 w ≠ main_v6))
theorem afterCall_norms (c : Dev nD) : afterCall m c (Proc.devRef .tc main_v31) = V m c main_v31 :=
  Pipeline.withArrays_of_ne _ c (V0 m c) _ main_v31 (by exact (by decide : ∀ w, Pipeline.arrRef spec0 w ≠ main_v31))
theorem afterCall_bias (c : Dev nD) : afterCall m c (Proc.devRef .tc main_arg4) = V m c main_arg4 :=
  Pipeline.withArrays_of_ne _ c (V0 m c) _ main_arg4 (by exact (by decide : ∀ w, Pipeline.arrRef spec0 w ≠ main_arg4))

section Stretches
variable (W : Valuation τ sig (Elt Ideal))
variable (x1 : (⟨S2x1200000, .i32⟩ : BufTy).Contents (Elt Ideal)) (x2 : (⟨S1200000, .f32⟩ : BufTy).Contents (Elt Ideal))
  (x4 : (⟨S64, .f32⟩ : BufTy).Contents (Elt Ideal)) (arr : (⟨S50000x128, .bf16⟩ : BufTy).Contents (Elt Ideal))

set_option maxHeartbeats 8000000 in
/-- The lines up to the bias: from any contents holding the call's output array and the reference's sources, targets
    and normalisations, the sum before the relu is the shared one of the re-laid array. -/
theorem before_relu
    (h38 : W (Proc.devRef .tc main_v38) = arr)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h31 : W (Proc.devRef .tc main_v31) = Cert.ReferenceIdeal.Read.val_main_v31 (F := Ideal) x1 x2)
    (h4 : W (Proc.devRef .tc main_arg4) = x4) :
    after hostOps1 W (Proc.devRef .tc main_v56)
      = Cert.ReferenceIdeal.Shared.pre x1 x2 x4 (shapeCast S100000x64 arr shapeCasts_S50000x128_S100000x64) := by
  simp only [hostOps1]
  after_results_simp
  rw [h38, h3, h6, h31, h4]
  rfl

/-- The relu: from any contents with the sum at `p`, the result is the maximum of `p` and zero. -/
theorem relu_result (p : (⟨S100000x64, .f32⟩ : BufTy).Contents (Elt Ideal)) (hp : W (Proc.devRef .tc main_v56) = p) :
    after hostOps1_1 W (Proc.devRef .tc main_v57)
      = maximumf (F := Ideal) (φ := .f32) p (Cert.ReferenceIdeal.Read.val_main_call1_v0 (F := Ideal)) := by
  simp only [hostOps1_1]
  after_results
  rw [hp]
  rfl

end Stretches

/-- The program's result: the shared chain on the call's output array, re-laid as one row per node. -/
theorem result (c : Dev nD) :
    Pipeline.afterTail₀ cfgs (dats m) 0 (V0 m) [hostOps1, hostOps1_1] c main_v57
      = Cert.ReferenceIdeal.Shared.out (m ((c : Thread nD τ).loc main_arg1)) (m ((c : Thread nD τ).loc main_arg2))
          (m ((c : Thread nD τ).loc main_arg4))
          (shapeCast S100000x64 ((dats m 0 c).arrAt 2 cfg0.N) shapeCasts_S50000x128_S100000x64) := by
  unfold Pipeline.afterTail₀
  show StableHlo.after (List.flatten [hostOps1, hostOps1_1]) (afterCall m c) (Proc.devRef .tc main_v57) = _
  rw [List.flatten_cons, List.flatten_cons, List.flatten_nil, List.append_nil, LibHostRead.after_append]
  exact relu_result _ _ (before_relu (afterCall m c) _ _ _ _ (afterCall_out m c)
    ((afterCall_sources m c).trans (HostValue.sources m c))
    ((afterCall_targets m c).trans (HostValue.targets m c))
    ((afterCall_norms m c).trans (HostValue.norms m c))
    ((afterCall_bias m c).trans (V_main_arg4 m c)))

end Cert.KernelIdeal.TailValue

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.RegionValue.lean ====
/-
  The pallas_call's output array, read after the run.

  The call walks the paired-rows array (50000 rows of 128 lanes: node 2r in lanes 0–63 of row r, node 2r+1 in
  lanes 64–127) in five blocks of 10000 rows. At each block the body multiplies the block by the whole 128 × 128
  weight into a zero accumulator and stores the product; the narrowing to bf16 before and after the product is the
  identity on extended reals. So block t of the output is the rows-by-columns product of block t of the left array
  with the weight, the five blocks tile the output, and the whole output array is the product of the whole left
  array with the weight: entry (r, q) is the sum over k < 128 of left (r, k) · weight (k, q).
-/
import proofs.«107853_j13786845020199_2_alg».proof.Proof.Gen.KernelIdeal.Frame
import proofs.«107853_j13786845020199_2_alg».proof.Proof.LibPlainMatmul
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The rows-by-columns product of a 50000 × 128 array with a 128 × 128 array, entry by entry. -/
def rowsTimes (X : S50000x128.Idx → EReal) (Wb : S128x128.Idx → EReal) : S50000x128.Idx → EReal :=
  fun i => ∑ k : Fin 128, X (ix2 (⟨(i 0).val, idx2_lt0 i⟩ : Fin 50000) k) * Wb (ix2 k (⟨(i 1).val, idx2_lt1 i⟩ : Fin 128))

/-- What the body stores, at (p, q) of its block: the narrowings are the identity, and the product into the zero
    accumulator is the sum over the 128 shared lanes. -/
theorem stored_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  simp only [shapeCast_self]
  exact Cert.LibPlainMatmul.matmul_zero_plain (φ₁ := .bf16) (φ₂ := .bf16) _ x0 x1 p q

theorem zeros2 : (![0, 0] : Fin 2 → Nat) = fun _ => 0 := funext fun a => by fin_cases a <;> rfl

/-- The index maps over the five grid points: the left array's block and the output's block are block t of their
    arrays' rows, all lanes; the weight's block is the whole weight at every point. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- What grid point t writes back is block t of the product of the two arrays as the call finds them. -/
theorem flushed_eq (c : Dev nD) (t : Fin cfg0.N) :
    (dats m 0 c).flushed 2 t
      = ((cfg0.win 2).blk t).view.read (Elt Ideal) (rowsTimes (V m c main_v37) (V m c main_v36)) := by
  show (cfg0.win 2).cut (grid0.coords t) ((dats m 0 c).after 2 t) = _
  rw [after0_2]
  unfold out0_2
  rw [View.canon_unit_zero zeros2]
  simp only [View.ld_unit_zero (S := S10000x128) zeros2, View.ld_unit_zero (S := S128x128) zeros2]
  obtain ⟨e00, e01, e10, e11, e20, e21⟩ := block_indices t
  funext j
  obtain ⟨p, q, rfl⟩ : ∃ (p : Fin 10000) (q : Fin 128), j = ix2 p q := ⟨j 0, j 1, eq_ix2 j⟩
  refine (stored_apply (iblk m c 0 t) (iblk m c 1 t) p q).trans ?_
  show _ = rowsTimes (V m c main_v37) (V m c main_v36) (((cfg0.win 2).blk t).view.emb (ix2 p q))
  unfold rowsTimes
  refine Finset.sum_congr rfl fun k _ => ?_
  have hl : iblk m c 0 t (ix2 p k) = V m c main_v37 (((cfg0.win 0).blk t).view.emb (ix2 p k)) := rfl
  have hr : iblk m c 1 t (ix2 k q) = V m c main_v36 (((cfg0.win 1).blk t).view.emb (ix2 k q)) := rfl
  rw [hl, hr]
  have il : ((cfg0.win 0).blk t).view.emb (ix2 p k)
      = ix2 (⟨((((cfg0.win 2).blk t).view.emb (ix2 p q)) 0).val, idx2_lt0 _⟩ : Fin 50000) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have ir : ((cfg0.win 1).blk t).view.emb (ix2 k q)
      = ix2 k (⟨((((cfg0.win 2).blk t).view.emb (ix2 p q)) 1).val, idx2_lt1 _⟩ : Fin 128) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [il, ir]

/-- An index of the output array is in point t's block iff each coordinate is in the block's range on its axis. -/
theorem mem_block (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v38).slice (win0_2.rect t)).set ↔ _
  rw [View.set_slice_whole, Rect.mem_set_unit]
  exact Iff.rfl

/-- Every row of the output is in the block of the point numbered by the row's ten-thousand. -/
theorem covered (i : S50000x128.Idx) :
    ∃ t : Fin cfg0.N, (cfg0.win 2).flush t = true ∧ i ∈ ((cfg0.win 2).blk t).view.set := by
  have h0 : (i 0).val < 50000 := idx2_lt0 i
  have h1 : (i 1).val < 128 := idx2_lt1 i
  have hN : cfg0.N = 5 := N_0
  refine ⟨⟨(i 0).val / 10000, by rw [hN]; omega⟩, flush0_2 _, ?_⟩
  rw [mem_block]
  obtain ⟨-, -, -, -, e20, e21⟩ := block_indices ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e20]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e21]; omega

/-- The output array after the run: the product of the paired-rows array with the weight, as the call found them. -/
theorem final (c : Dev nD) :
    (dats m 0 c).arrAt 2 cfg0.N = rowsTimes (V m c main_v37) (V m c main_v36) :=
  (dats m 0 c).arrAt_eq_of_cover 2 _ (fun t _ => flushed_eq m c t) covered

end Cert.KernelIdeal.RegionValue

end
-- ==== Proof.Linear.lean ====
/-
  The linear transform, two ways.

  The reference computes h = x · wᵀ directly: h (n, d) is the sum over k < 64 of x (n, k) · w (d, k).

  The kernel's program pairs the nodes — row r of the paired array holds node 2r in lanes 0–63 and node 2r + 1 in
  lanes 64–127 —, multiplies the paired array by the 128 × 128 block-diagonal weight, and re-lays the product as one
  row per node. A sum over the 128 lanes is the sum over lanes 0–63 plus the sum over lanes 64–127. For an even node
  n = 2r the output lanes are 0–63 of row r: there the lower half of the weight is zero, every product of the second
  sum is x · 0 = 0, and the first sum is the sum over k of x (2r, k) · w (d, k). For an odd node n = 2r + 1 the output
  lanes are 64–127: the upper half is zero there, the first sum vanishes, and the second is the sum over k of
  x (2r + 1, k) · w (d, k). Only x · 0 = 0 and a + 0 = a are used, which hold on all extended reals: no finiteness
  of the inputs is needed.
-/
import proofs.«107853_j13786845020199_2_alg».proof.Proof.RegionValue
import proofs.«107853_j13786845020199_2_alg».proof.Proof.BlockDiag
import proofs.«107853_j13786845020199_2_alg».proof.Proof.Gen.ReferenceIdeal.Read
import Idealize.ShloMosaic.Lib.Pipeline.Value
import Idealize.ShloMosaic.Lib.ValueIdx

noncomputable section

namespace Cert.KernelIdeal.Linear

open Idealize.ShloMosaic Idealize.ShloMosaic.ValueIdx
open Cert.KernelIdeal Cert.KernelIdeal.Gen Cert.KernelIdeal.RegionValue Cert.KernelIdeal.BlockDiag
open scoped BigOperators

/-- A sum over 128 lanes is the sum over lanes 0–63 plus the sum over lanes 64–127. -/
theorem sum_halves (f : Fin 128 → EReal) :
    ∑ k : Fin 128, f k
      = ∑ k : Fin 64, f ⟨k.val, by have := k.isLt; omega⟩ + ∑ k : Fin 64, f ⟨64 + k.val, by have := k.isLt; omega⟩ :=
  Fin.sum_univ_add (a := 64) (b := 64) f

variable (x0 : S100000x64.Idx → EReal) (w : S64x64.Idx → EReal)

/-- The node features re-laid as 50000 rows of 128 lanes. -/
abbrev pairedRows : S50000x128.Idx → EReal := shapeCast S50000x128 x0 shapeCasts_S100000x64_S50000x128

/-- Lane k < 64 of paired row r is feature k of node 2r … -/
theorem paired_low (r : Fin 50000) (k : Fin 64) :
    pairedRows x0 (ix2 r (⟨k.val, by have := k.isLt; omega⟩ : Fin 128))
      = x0 (ix2 (⟨2 * r.val, by have := r.isLt; omega⟩ : Fin 100000) k) :=
  shapeCast_apply x0 _ _ _ (by
    rw [Shape.rowMajor_val_two, Shape.rowMajor_val_two]
    show 2 * r.val * 64 + k.val = r.val * 128 + k.val
    omega)

/-- … and lane 64 + k is feature k of node 2r + 1. -/
theorem paired_high (r : Fin 50000) (k : Fin 64) :
    pairedRows x0 (ix2 r (⟨64 + k.val, by have := k.isLt; omega⟩ : Fin 128))
      = x0 (ix2 (⟨2 * r.val + 1, by have := r.isLt; omega⟩ : Fin 100000) k) :=
  shapeCast_apply x0 _ _ _ (by
    rw [Shape.rowMajor_val_two, Shape.rowMajor_val_two]
    show (2 * r.val + 1) * 64 + k.val = r.val * 128 + (64 + k.val)
    omega)

/-- The product at an even node's lanes: only the upper-left corner of the weight contributes. -/
theorem even_node (r : Fin 50000) (d : Fin 64) :
    rowsTimes (pairedRows x0) (blockDiag w) (ix2 r (⟨d.val, by have := d.isLt; omega⟩ : Fin 128))
      = ∑ k : Fin 64, x0 (ix2 (⟨2 * r.val, by have := r.isLt; omega⟩ : Fin 100000) k) * w (ix2 d k) := by
  show ∑ k : Fin 128, pairedRows x0 (ix2 r k) * blockDiag w (ix2 k (⟨d.val, by have := d.isLt; omega⟩ : Fin 128)) = _
  rw [sum_halves]
  beta_reduce
  have hz : ∑ k : Fin 64, pairedRows x0 (ix2 r (⟨64 + k.val, by have := k.isLt; omega⟩ : Fin 128))
      * blockDiag w (ix2 (⟨64 + k.val, by have := k.isLt; omega⟩ : Fin 128) (⟨d.val, by have := d.isLt; omega⟩ : Fin 128)) = 0 :=
    Finset.sum_eq_zero fun k _ => by rw [blockDiag_bottom, lower_left, mul_zero]
  rw [hz, add_zero]
  refine Finset.sum_congr rfl fun k _ => ?_
  rw [paired_low, blockDiag_top, upper_left]

/-- The product at an odd node's lanes: only the lower-right corner contributes. -/
theorem odd_node (r : Fin 50000) (d : Fin 64) :
    rowsTimes (pairedRows x0) (blockDiag w) (ix2 r (⟨64 + d.val, by have := d.isLt; omega⟩ : Fin 128))
      = ∑ k : Fin 64, x0 (ix2 (⟨2 * r.val + 1, by have := r.isLt; omega⟩ : Fin 100000) k) * w (ix2 d k) := by
  show ∑ k : Fin 128, pairedRows x0 (ix2 r k) * blockDiag w (ix2 k (⟨64 + d.val, by have := d.isLt; omega⟩ : Fin 128)) = _
  rw [sum_halves]
  beta_reduce
  have hz : ∑ k : Fin 64, pairedRows x0 (ix2 r (⟨k.val, by have := k.isLt; omega⟩ : Fin 128))
      * blockDiag w (ix2 (⟨k.val, by have := k.isLt; omega⟩ : Fin 128) (⟨64 + d.val, by have := d.isLt; omega⟩ : Fin 128)) = 0 :=
    Finset.sum_eq_zero fun k _ => by rw [blockDiag_top, upper_right, mul_zero]
  rw [hz, zero_add]
  refine Finset.sum_congr rfl fun k _ => ?_
  rw [paired_high, blockDiag_bottom, lower_right]

/-- The reference's product read at (n, d). -/
theorem reference_apply (n : Fin 100000) (d : Fin 64) :
    Cert.ReferenceIdeal.Read.val_main_v33 (F := Ideal) x0 w (ix2 n d) = ∑ k : Fin 64, x0 (ix2 n k) * w (ix2 d k) := by
  rw [Cert.ReferenceIdeal.Read.val_main_v33_apply]
  refine Finset.sum_congr rfl fun k _ => ?_
  rw [Cert.ReferenceIdeal.Read.val_main_v32_apply]
  have e1 : Cert.ReferenceIdeal.Read.lidx_main_v33 (ix2 n d) k = ix2 n k :=
    funext fun a => match a with | ⟨0, _⟩ => rfl | ⟨1, _⟩ => rfl
  have e2 : Cert.ReferenceIdeal.Read.idx_main_v32 (Cert.ReferenceIdeal.Read.ridx_main_v33 (ix2 n d) k) = ix2 d k :=
    funext fun a => match a with | ⟨0, _⟩ => rfl | ⟨1, _⟩ => rfl
  rw [e1, e2]

/-- The paired product, re-laid as one row per node, is the reference's x · wᵀ. -/
theorem relaid_eq :
    shapeCast S100000x64 (rowsTimes (pairedRows x0) (blockDiag w)) shapeCasts_S50000x128_S100000x64
      = Cert.ReferenceIdeal.Read.val_main_v33 (F := Ideal) x0 w := by
  funext i
  obtain ⟨n, d, rfl⟩ : ∃ (n : Fin 100000) (d : Fin 64), i = ix2 n d := ⟨i 0, i 1, eq_ix2 i⟩
  rw [reference_apply]
  have hn := n.isLt
  have hd := d.isLt
  rcases Nat.mod_two_eq_zero_or_one n.val with h | h
  · rw [shapeCast_apply _ shapeCasts_S50000x128_S100000x64 (ix2 n d)
      (ix2 (⟨n.val / 2, by omega⟩ : Fin 50000) (⟨d.val, by omega⟩ : Fin 128)) (by
        rw [Shape.rowMajor_val_two, Shape.rowMajor_val_two]
        show n.val / 2 * 128 + d.val = n.val * 64 + d.val
        omega)]
    rw [even_node x0 w ⟨n.val / 2, by omega⟩ d]
    have e : (⟨2 * (n.val / 2), by omega⟩ : Fin 100000) = n := Fin.ext (by show 2 * (n.val / 2) = n.val; omega)
    simp only [e]
  · rw [shapeCast_apply _ shapeCasts_S50000x128_S100000x64 (ix2 n d)
      (ix2 (⟨n.val / 2, by omega⟩ : Fin 50000) (⟨64 + d.val, by omega⟩ : Fin 128)) (by
        rw [Shape.rowMajor_val_two, Shape.rowMajor_val_two]
        show n.val / 2 * 128 + (64 + d.val) = n.val * 64 + d.val
        omega)]
    rw [odd_node x0 w ⟨n.val / 2, by omega⟩ d]
    have e : (⟨2 * (n.val / 2) + 1, by omega⟩ : Fin 100000) = n := Fin.ext (by show 2 * (n.val / 2) + 1 = n.val; omega)
    simp only [e]

end Cert.KernelIdeal.Linear

end
-- ==== Proof.ResultValue.lean ====
/-
  The kernel's run, with its result named.

  The generated frame run leaves the result buffer at what the lines after the pallas_call compute from the call's
  output array. That is the shared chain applied to the re-laid output array; the output array is the paired node
  features times the block-diagonal weight; and that product, re-laid as one row per node, is the reference's own
  x · wᵀ. So the kernel's program ends with its result at the shared chain applied to the reference's x · wᵀ, and
  with its arguments unchanged.
-/
import proofs.«107853_j13786845020199_2_alg».proof.Proof.TailValue
import proofs.«107853_j13786845020199_2_alg».proof.Proof.RegionValue
import proofs.«107853_j13786845020199_2_alg».proof.Proof.Linear

set_option maxRecDepth 16384

noncomputable section

namespace Cert.KernelIdeal.ResultValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel's result as a function of its arguments: the shared chain on x · wᵀ. -/
def result (c : Dev nD) : Buf (Elt Ideal) ((c.tc : Thread nD τ).loc main_v57) :=
  Cert.ReferenceIdeal.Shared.out (m ((c : Thread nD τ).loc main_arg1)) (m ((c : Thread nD τ).loc main_arg2))
    (m ((c : Thread nD τ).loc main_arg4))
    (Cert.ReferenceIdeal.Read.val_main_v33 (F := Ideal) (m ((c : Thread nD τ).loc main_arg0)) (m ((c : Thread nD τ).loc main_arg3)))

/-- What the lines after the call leave in the result buffer is that function of the arguments. -/
theorem tail_eq (c : Dev nD) :
    Pipeline.afterTail₀ cfgs (dats m) 0 (V0 m) [hostOps1, hostOps1_1] c main_v57 = result m c := by
  rw [TailValue.result, RegionValue.final, HostValue.paired, HostValue.weight]
  exact congrArg _ (Linear.relaid_eq _ _)

/-- Every weakly fair execution of the kernel's program terminates with the result buffer at `result` and the
    arguments unchanged. -/
theorem run : θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v57 (Pipeline.mem_restRefs_of main_v57 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ResultValue

end
-- ==== Proof.lean ====
/-
  A graph-convolution layer, out = relu (segment_sum (norm[:, None] · h[source], target) + b) with h = x · Wᵀ, computed
  two ways that differ only in how h is made.

  The reference multiplies the 100000 × 64 node features by the transposed 64 × 64 weight on the host. The kernel's
  program pairs consecutive nodes into 50000 rows of 128 lanes, multiplies that array, five blocks of 10000 rows at a
  time inside a pallas_call, by the 128 × 128 block-diagonal weight [[Wᵀ, 0], [0, Wᵀ]], stores the product as bf16 and
  re-lays it as one row per node. On extended reals the bf16 narrowings are the identity, the zero corners of the
  weight contribute x · 0 = 0, and what is left of each entry is exactly the reference's sum over k of
  x (n, k) · W (d, k) (Proof/Linear.lean; no finiteness of the inputs is used). Everything else — the self loops, the
  degree normalisation before the product, and the gather, scaling, scatter-add, bias and relu after it — is the same
  sequence of host operations in both programs, carried as one function of h and never opened (Proof/Shared.lean,
  Proof/HostValue.lean, Proof/TailValue.lean).

  The three frames: the two kernel programs' are the generated frame certificates; the reference's is its generated
  run with the result dropped. The idealization rewrote nothing, so `preserves` is trivial.
-/
import proofs.«107853_j13786845020199_2_alg».proof.Defs
import proofs.«107853_j13786845020199_2_alg».proof.Proof.Gen.Kernel
import proofs.«107853_j13786845020199_2_alg».proof.Proof.Gen.Kernel.Skeleton
import proofs.«107853_j13786845020199_2_alg».proof.Proof.Gen.Kernel.Launch
import proofs.«107853_j13786845020199_2_alg».proof.Proof.Gen.Kernel.Points
import proofs.«107853_j13786845020199_2_alg».proof.Proof.Gen.Kernel.Frame
import proofs.«107853_j13786845020199_2_alg».proof.Proof.Gen.KernelIdeal
import proofs.«107853_j13786845020199_2_alg».proof.Proof.Gen.KernelIdeal.Skeleton
import proofs.«107853_j13786845020199_2_alg».proof.Proof.Gen.KernelIdeal.Launch
import proofs.«107853_j13786845020199_2_alg».proof.Proof.Gen.KernelIdeal.Points
import proofs.«107853_j13786845020199_2_alg».proof.Proof.Gen.KernelIdeal.Frame
import proofs.«107853_j13786845020199_2_alg».proof.Proof.Gen.ReferenceIdeal
import proofs.«107853_j13786845020199_2_alg».proof.Proof.Gen.ReferenceIdeal.Run
import proofs.«107853_j13786845020199_2_alg».proof.Proof.Gen.ReferenceIdeal.Read
import proofs.«107853_j13786845020199_2_alg».proof.Proof.Gen.Pre_finite_inputs
import proofs.«107853_j13786845020199_2_alg».proof.Proof.Shared
import proofs.«107853_j13786845020199_2_alg».proof.Proof.ResultValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the shared chain applied to x · Wᵀ of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨Cert.KernelIdeal.ResultValue.result m, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.Shared.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
